-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x224x224 : Shape := ⟨4, ![32, 3, 224, 224]⟩
abbrev S_ : Shape := ⟨0, ![]⟩

class Facts : Prop where
  bcast_S_S32x3x224x224 : S_.BroadcastsInDim S32x3x224x224 (![] : Fin 0 → Fin S32x3x224x224.rank)
  reducesTo_S32x3x224x224_S_d0_1_2_3 : S32x3x224x224.ReducesTo [0, 1, 2, 3] S_
  h_S_ : 0 < S_.numel

variable [Facts]

def fn {F : FTy → Type} [FloatOps F] (main_arg0 : FVec F S32x3x224x224 .f32) : IVec S_ 1 :=
  let main_v0 : FVec F S32x3x224x224 .f32 := Host.absf main_arg0
  let main_cst : FVec F S_ .f32 := constant S_ .f32 0x7F800000#32
  let main_v1 : FVec F S32x3x224x224 .f32 := broadcastInDim S32x3x224x224 ![] bcast_S_S32x3x224x224 main_cst
  let main_v2 : IVec S32x3x224x224 1 := cmpf .olt main_v0 main_v1
  let main_c : IVec S_ 1 := constantI S_ 1 1#1
  let main_v3 : IVec S_ 1 := (fun x v => Host.reduce IntOp.andi x v reducesTo_S32x3x224x224_S_d0_1_2_3 h_S_) main_v2 main_c
  main_v3
-- ==== Kernel.lean ====
abbrev S32x3x224x224 : Shape := ⟨4, ![32, 3, 224, 224]⟩
abbrev S32x150528 : Shape := ⟨2, ![32, 150528]⟩
abbrev S2x32x32 : Shape := ⟨3, ![2, 32, 32]⟩
abbrev S32x18816 : Shape := ⟨2, ![32, 18816]⟩
abbrev S1x32x32 : Shape := ⟨3, ![1, 32, 32]⟩
abbrev S32x32 : Shape := ⟨2, ![32, 32]⟩
abbrev S_ : Shape := ⟨0, ![]⟩

abbrev nBuf : Space → Nat
  | .hbm => 24
  | .vmem => 5
  | .smem => 0
  | _ => 0

abbrev bufTy : (tb : Table) → Fin (tcTables nBuf tb) → BufTy
  | .hbm, ⟨0, _⟩ => ⟨S32x3x224x224, .f32⟩
  | .hbm, ⟨1, _⟩ => ⟨S32x150528, .f32⟩
  | .hbm, ⟨2, _⟩ => ⟨S2x32x32, .f32⟩
  | .hbm, ⟨3, _⟩ => ⟨S1x32x32, .f32⟩
  | .hbm, ⟨4, _⟩ => ⟨S32x32, .f32⟩
  | .hbm, ⟨5, _⟩ => ⟨S1x32x32, .f32⟩
  | .hbm, ⟨6, _⟩ => ⟨S32x32, .f32⟩
  | .hbm, ⟨7, _⟩ => ⟨S32x32, .f32⟩
  | .hbm, ⟨8, _⟩ => ⟨S_, .f32⟩
  | .hbm, ⟨9, _⟩ => ⟨S32x32, .f32⟩
  | .hbm, ⟨10, _⟩ => ⟨S32x32, .f32⟩
  | .hbm, ⟨11, _⟩ => ⟨S32x32, .i32⟩
  | .hbm, ⟨12, _⟩ => ⟨S32x32, .i32⟩
  | .hbm, ⟨13, _⟩ => ⟨S_, .i32⟩
  | .hbm, ⟨14, _⟩ => ⟨S32x32, .i32⟩
  | .hbm, ⟨15, _⟩ => ⟨S32x32, .i32⟩
  | .hbm, ⟨16, _⟩ => ⟨S32x32, .i1⟩
  | .hbm, ⟨17, _⟩ => ⟨S32x32, .f32⟩
  | .hbm, ⟨18, _⟩ => ⟨S_, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S_, .f32⟩
  | .hbm, ⟨23, _⟩ => ⟨S_, .f32⟩
  | .local _ .vmem, ⟨0, _⟩ => ⟨S32x18816, .f32⟩
  | .local _ .vmem, ⟨1, _⟩ => ⟨S32x18816, .f32⟩
  | .local _ .vmem, ⟨2, _⟩ => ⟨S1x32x32, .f32⟩
  | .local _ .vmem, ⟨3, _⟩ => ⟨S1x32x32, .f32⟩
  | .local _ .vmem, ⟨4, _⟩ => ⟨S32x32, .f32⟩
  | _, _ => ⟨S32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x18816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S32x3x224x224_S32x150528 : S32x3x224x224.ShapeCasts S32x150528
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x18816_S32x18816_0_0 : ∀ a, (![0, 0] : Fin 2 → Nat) a + S32x18816.size a ≤ S32x18816.size a
  h_S32x18816 : 0 < S32x18816.numel
  shapeCasts_S32x18816_S32x18816 : S32x18816.ShapeCasts S32x18816
  bitsLt_bf16_f32 : FTy.bits .bf16 < FTy.bits .f32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S32x32_S1x32x32 : S32x32.ShapeCasts S1x32x32
  slices_S2x32x32_S1x32x32_0_0_0 : S2x32x32.Slices ![0, 0, 0] S1x32x32
  slices_S2x32x32_S1x32x32_1_0_0 : S2x32x32.Slices ![1, 0, 0] S1x32x32
  bcast_S_S32x32 : S_.BroadcastsInDim S32x32 (![] : Fin 0 → Fin S32x32.rank)
  reducesTo_S32x32_S_d0_1 : S32x32.ReducesTo [0, 1] S_
  h_S_ : 0 < S_.numel
  dot_S32x18816_S32x18816_S32x32_1_1_0_0_n_n_wf : DotDims.WF S32x18816 S32x18816 S32x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x18816.size a ≤ S32x150528.size a
  hwx0_0 : ∀ i : grid0.Coords, EltTy.bits .f32 = 32 ∨ (Rect.block (s := S32x150528) S32x18816.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S2x32x32.size a
  hwx0_1 : ∀ i : grid0.Coords, EltTy.bits .f32 = 32 ∨ (Rect.block (s := S2x32x32) S1x32x32.size (cc0_transform_1 i) (hinb0_1 i)).WholeWords (EltTy.packing .f32)

variable [Facts₀]

def dot_S32x18816_S32x18816_S32x32_1_1_0_0_n_n : DotDims S32x18816 S32x18816 S32x32 where
  lhsContracting := [1]
  rhsContracting := [1]
  lhsNonContracting := [0]
  rhsNonContracting := [0]
  lhsBatch := []
  rhsBatch := []
  wf := dot_S32x18816_S32x18816_S32x32_1_1_0_0_n_n_wf

abbrev win0_0 : Pipeline.Window sig grid0 :=
  Pipeline.Window.ofSpec (Memref.whole main_v0) S32x18816.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x3x224x224 : Shape := ⟨4, ![32, 3, 224, 224]⟩
abbrev S32x150528 : Shape := ⟨2, ![32, 150528]⟩
abbrev S32x32 : Shape := ⟨2, ![32, 32]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32x3x224x224, .f32⟩
  | .hbm, ⟨1, _⟩ => ⟨S32x150528, .f32⟩
  | .hbm, ⟨2, _⟩ => ⟨S32x150528, .f32⟩
  | .hbm, ⟨3, _⟩ => ⟨S32x32, .f32⟩
  | .hbm, ⟨4, _⟩ => ⟨S_, .f32⟩
  | .hbm, ⟨5, _⟩ => ⟨S32x32, .f32⟩
  | .hbm, ⟨6, _⟩ => ⟨S32x32, .f32⟩
  | .hbm, ⟨7, _⟩ => ⟨S32x32, .i32⟩
  | .hbm, ⟨8, _⟩ => ⟨S32x32, .i32⟩
  | .hbm, ⟨9, _⟩ => ⟨S_, .i32⟩
  | .hbm, ⟨10, _⟩ => ⟨S32x32, .i32⟩
  | .hbm, ⟨11, _⟩ => ⟨S32x32, .i32⟩
  | .hbm, ⟨12, _⟩ => ⟨S32x32, .i1⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S32x32, .f32⟩
  | .hbm, ⟨18, _⟩ => ⟨S_, .f32⟩
  | .hbm, ⟨19, _⟩ => ⟨S_, .f32⟩
  | _, _ => ⟨S32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S32x3x224x224_S32x150528 : S32x3x224x224.ShapeCasts S32x150528
  bcast_S_S32x32 : S_.BroadcastsInDim S32x32 (![] : Fin 0 → Fin S32x32.rank)
  reducesTo_S32x32_S_d0_1 : S32x32.ReducesTo [0, 1] S_
  h_S_ : 0 < S_.numel
  dot_S32x150528_S32x150528_S32x32_1_1_0_0_n_n_wf : DotDims.WF S32x150528 S32x150528 S32x32 [1] [1] [0] [0] [] []

variable [Facts₀]

def dot_S32x150528_S32x150528_S32x32_1_1_0_0_n_n : DotDims S32x150528 S32x150528 S32x32 where
  lhsContracting := [1]
  rhsContracting := [1]
  lhsNonContracting := [0]
  rhsNonContracting := [0]
  lhsBatch := []
  rhsBatch := []
  wf := dot_S32x150528_S32x150528_S32x32_1_1_0_0_n_n_wf

class Facts : Prop extends Facts₀ where

variable [Facts]
-- ==== Proof.GramSpec.lean ====
/-
  The mathematics of the certificate, free of both programs.

  X is a matrix of extended reals with 32 rows and 150528 = 8 · 18816 columns. For rows b, c and a column k the
  TERM is (X(b,k)·X(b,k)) · (X(c,k)·X(c,k)): the product of the two squared entries. The Gram entry of the
  squared rows is the sum of the terms over all 150528 columns. A CHUNK is 18816 consecutive columns; chunk p
  contributes the sum of the terms over columns 18816·p … 18816·p + 18815. Cutting the 150528 columns into the
  eight chunks, and the chunks into the first four and the last four, the Gram entry is

      (chunk 0 + chunk 1 + chunk 2 + chunk 3) + (chunk 4 + chunk 5 + chunk 6 + chunk 7).

  Only that + on the extended reals is commutative and associative with unit 0 is used: nothing is asked of the
  entries, which may be infinite.
-/
import Idealize.ShloMosaic.PureOps.Ideal
import Idealize.ShloMosaic.Lib.ValueIdx

noncomputable section

namespace Cert.GramSpec

open Idealize.ShloMosaic Idealize.ShloMosaic.ValueIdx

/-- The matrix's shape: 32 rows, 150528 columns. -/
abbrev SX : Shape := ⟨2, ![32, 150528]⟩
/-- The two partial Gram matrices, one per half of the columns. -/
abbrev SP : Shape := ⟨3, ![2, 32, 32]⟩

/-- A sum over `a·b` consecutive naturals is the sum, over `a` consecutive chunks, of each chunk's `b` terms. -/
theorem sum_range_chunks {β : Type*} [AddCommMonoid β] (f : ℕ → β) (a b : ℕ) :
    ∑ k ∈ Finset.range (a * b), f k = ∑ p ∈ Finset.range a, ∑ d ∈ Finset.range b, f (p * b + d) := by
  induction a with
  | zero => simp
  | succ a ih => rw [Nat.succ_mul, Finset.sum_range_add, ih, Finset.sum_range_succ]

/-- Row `b` at the natural column `k`: the entry when `k` is a column; past the last column (never summed) it is 0. -/
def col (X : SX.Idx → EReal) (b : Fin 32) (k : ℕ) : EReal :=
  if h : k < 150528 then X (ix2 b ⟨k, h⟩) else 0

theorem col_of_lt (X : SX.Idx → EReal) (b : Fin 32) (k : ℕ) (h : k < 150528) : col X b k = X (ix2 b ⟨k, h⟩) :=
  dif_pos h

/-- The term of rows `b`, `c` at column `k`: the product of the two squared entries. -/
def term (X : SX.Idx → EReal) (b c : Fin 32) (k : ℕ) : EReal :=
  (col X b k * col X b k) * (col X c k * col X c k)

/-- Chunk `p`'s contribution to the Gram entry of rows `b`, `c`: its 18816 terms summed. -/
def chunk (X : SX.Idx → EReal) (p : ℕ) (b c : Fin 32) : EReal :=
  ∑ d ∈ Finset.range 18816, term X b c (p * 18816 + d)

/-- The Gram entry of the squared rows `b`, `c`: all 150528 terms summed. -/
def gram (X : SX.Idx → EReal) (b c : Fin 32) : EReal :=
  ∑ k ∈ Finset.range 150528, term X b c k

/-- The Gram entry as a sum over the matrix's own column indices. -/
theorem gram_eq_fin_sum (X : SX.Idx → EReal) (b c : Fin 32) :
    gram X b c = ∑ k : Fin 150528, (X (ix2 b k) * X (ix2 b k)) * (X (ix2 c k) * X (ix2 c k)) := by
  unfold gram
  rw [← Fin.sum_univ_eq_sum_range (fun k => term X b c k) 150528]
  refine Finset.sum_congr rfl fun k _ => ?_
  unfold term
  rw [col_of_lt X b k.val k.isLt, col_of_lt X c k.val k.isLt]

/-- The Gram matrix of the squared rows. -/
def gramMatrix (X : SX.Idx → EReal) : (⟨2, ![32, 32]⟩ : Shape).Idx → EReal :=
  fun i => gram X (i 0) (i 1)

/-- Half `h`'s partial Gram matrix: the four chunks 4h … 4h + 3 summed. -/
def partialGram (X : SX.Idx → EReal) : SP.Idx → EReal :=
  fun i => ∑ s ∈ Finset.range 4, chunk X (4 * (i 0).val + s) (i 1) (i 2)

/-- The Gram entry is the first half's four chunks plus the second half's four. -/
theorem gram_eq_halves (X : SX.Idx → EReal) (b c : Fin 32) :
    gram X b c = ∑ s ∈ Finset.range 4, chunk X (4 * 0 + s) b c + ∑ s ∈ Finset.range 4, chunk X (4 * 1 + s) b c := by
  have h := sum_range_chunks (term X b c) (4 + 4) 18816
  have e : (4 + 4) * 18816 = 150528 := by norm_num
  rw [e, Finset.sum_range_add] at h
  unfold gram chunk
  rw [h]
  simp only [Nat.mul_zero, Nat.zero_add, Nat.mul_one]

/-- A 32×18816 block that holds the matrix's columns 18816·p … 18816·p + 18815: the sum over its columns of the product of
    rows `b`, `c`'s squared entries is chunk `p`'s contribution. -/
theorem block_sum_eq_chunk (X : SX.Idx → EReal) (x : (⟨2, ![32, 18816]⟩ : Shape).Idx → EReal) (p : ℕ)
    (hx : ∀ (b : Fin 32) (d : Fin 18816), x (ix2 b d) = col X b (p * 18816 + d.val)) (b c : Fin 32) :
    ∑ d : Fin 18816, (x (ix2 b d) * x (ix2 b d)) * (x (ix2 c d) * x (ix2 c d)) = chunk X p b c := by
  unfold chunk
  rw [← Fin.sum_univ_eq_sum_range (fun d => term X b c (p * 18816 + d)) 18816]
  refine Finset.sum_congr rfl fun d _ => ?_
  rw [hx b d, hx c d]
  rfl

/-- The running sum of a half's chunks: after the chunk at offset `j + 1` it is what it was after offset `j` plus that chunk. -/
theorem sum_chunks_succ (X : SX.Idx → EReal) (q j : ℕ) (b c : Fin 32) :
    ∑ s ∈ Finset.range (j + 1 + 1), chunk X (4 * q + s) b c
      = ∑ s ∈ Finset.range (j + 1), chunk X (4 * q + s) b c + chunk X (4 * q + (j + 1)) b c :=
  Finset.sum_range_succ _ _

end Cert.GramSpec

end
-- ==== Proof.GramPieces.lean ====
/-
  What the kernel body leaves behind at one grid point, case by case, as values.

  The body keeps a 32×32 accumulator between grid points. With `x` the point's 32×18816 input block and `acc` what
  the accumulator held on entry, every point leaves `step x acc` in it, where `step` is the body's one
  accumulating store (entry contents plus the block's Gram product). At a first point of a run (k = 0) the
  entry contents are first overwritten by the zero block, so the point leaves `step x zero`. At a last point
  (k = 3) the output block is additionally written with the new accumulator, given a leading unit axis.
-/
import proofs.«103139_j7164005450196_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.GramPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point (0 < k < 3): the accumulator, found at `xs0`, is left at the accumulating store's value. -/
theorem scratch_B (c : Dev nD) (i : grid0.Coords) (a2 : Memref sig .tc .vmem S32x18816 .f32) (h2 : a2.IsWhole)
    (a3 : Memref sig .tc .vmem S1x32x32 .f32) (h3 : a3.IsWhole) (a4 : Memref sig .tc .vmem S32x32 .f32) (h4 : a4.IsWhole)
    (hc0 : ¬cond0_0 i) (hc1 : ¬cond0_1 i) (x0 : Vec F S32x18816 .f32) (xs0 : Vec F S32x32 .f32) :
    sout0_B_0 c i a2 h2 a3 h3 a4 h4 hc0 hc1 x0 xs0 = k0_pay2 x0 xs0 := by
  unfold sout0_B_0
  rw [View.read_writes_eq_canon _ _ _ (scover0_B_0 c i a2 h2 a3 h3 a4 h4 hc0 hc1 x0 xs0)]
  unfold kernelRun0_B
  dsimp only
  rw [View.canon_unit_zero hz2]
  simp only [View.readAt_eq_ld, h2.read_unread, h4.read_unread, View.ld_unit_zero (S := S32x18816) hz2,
    View.ld_unit_zero (S := S32x32) hz2]

/-- A first point (k = 0): the zero block is stored over whatever the accumulator held, read back, and added to. -/
theorem scratch_A (c : Dev nD) (i : grid0.Coords) (a2 : Memref sig .tc .vmem S32x18816 .f32) (h2 : a2.IsWhole)
    (a3 : Memref sig .tc .vmem S1x32x32 .f32) (h3 : a3.IsWhole) (a4 : Memref sig .tc .vmem S32x32 .f32) (h4 : a4.IsWhole)
    (hc0 : cond0_0 i) (hc1 : ¬cond0_1 i) (x0 : Vec F S32x18816 .f32) :
    sout0_A_0 c i a2 h2 a3 h3 a4 h4 hc0 hc1 x0 = k0_pay2 x0 (k0_pay1 (F := F)) := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S32x32) hz2, View.readCov_unit_zero (S := S32x32) _ hz2]
  simp only [View.readAt_eq_ld, h2.read_unread, View.ld_unit_zero (S := S32x18816) hz2]

/-- A last point (k = 3): the accumulator is left as at a middle point, -/
theorem scratch_C (c : Dev nD) (i : grid0.Coords) (a2 : Memref sig .tc .vmem S32x18816 .f32) (h2 : a2.IsWhole)
    (a3 : Memref sig .tc .vmem S1x32x32 .f32) (h3 : a3.IsWhole) (a4 : Memref sig .tc .vmem S32x32 .f32) (h4 : a4.IsWhole)
    (hc0 : ¬cond0_0 i) (hc1 : cond0_1 i) (x0 : Vec F S32x18816 .f32) (xs0 : Vec F S32x32 .f32) :
    sout0_C_0 c i a2 h2 a3 h3 a4 h4 hc0 hc1 x0 xs0 = k0_pay2 x0 xs0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz2]
  simp only [View.readAt_eq_ld, h2.read_unread, h4.read_unread, View.ld_unit_zero (S := S32x18816) hz2,
    View.ld_unit_zero (S := S32x32) hz2]

/-- and the output block is written with that new accumulator, reshaped to carry the leading unit axis. -/
theorem out_C (c : Dev nD) (i : grid0.Coords) (a2 : Memref sig .tc .vmem S32x18816 .f32) (h2 : a2.IsWhole)
    (a3 : Memref sig .tc .vmem S1x32x32 .f32) (h3 : a3.IsWhole) (a4 : Memref sig .tc .vmem S32x32 .f32) (h4 : a4.IsWhole)
    (hc0 : ¬cond0_0 i) (hc1 : cond0_1 i) (x0 : Vec F S32x18816 .f32) (xs0 : Vec F S32x32 .f32) :
    out0_C_1 c i a2 h2 a3 h3 a4 h4 hc0 hc1 x0 xs0 = k0_pay3 (k0_pay2 x0 xs0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz3, View.readCov_unit_zero (S := S32x32) _ hz2]
  simp only [View.readAt_eq_ld, h2.read_unread, h4.read_unread, View.ld_unit_zero (S := S32x18816) hz2,
    View.ld_unit_zero (S := S32x32) hz2]

end Cert.GramPieces

end
-- ==== Proof.GramPayload.lean ====
/-
  The body's stored values read at an index, over the extended reals.

  With `x` the point's 32×18816 input block and `acc` the 32×32 accumulator on entry:
    · the zero block is 0 everywhere;
    · the accumulating store at (b, c) is  acc(b, c) + Σ_{d < 18816} (x(b,d)·x(b,d)) · (x(c,d)·x(c,d)):
      the entries are squared, the narrowing to the multiplier's input format changes nothing on the extended
      reals, and the matrix product of the squared block with itself along the columns, taken into a zero
      accumulator, is the plain sum over the block's 18816 columns;
    · the output block at (0, b, c) is the accumulator at (b, c): only a leading unit axis is added.
-/
import proofs.«103139_j7164005450196_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.GramPayload

open Cert.KernelIdeal Cert.KernelIdeal.Gen Idealize.ShloMosaic Idealize.ShloMosaic.ValueIdx

/-! ## The block's product: operand indices of the contraction -/

theorem lhs_row (b c : Fin 32) (q : dot_S32x18816_S32x18816_S32x32_1_1_0_0_n_n.contr.Idx) :
    (dot_S32x18816_S32x18816_S32x32_1_1_0_0_n_n.lhsIdx (ix2 b c) q 0).val = b.val := by
  unfold DotDims.lhsIdx
  rw [dif_neg (show ¬(0 : Fin S32x18816.rank) ∈ dot_S32x18816_S32x18816_S32x32_1_1_0_0_n_n.lhsBatch by decide),
    dif_pos (show (0 : Fin S32x18816.rank) ∈ dot_S32x18816_S32x18816_S32x32_1_1_0_0_n_n.lhsNonContracting by decide)]
  rfl

theorem lhs_col (b c : Fin 32) (q : dot_S32x18816_S32x18816_S32x32_1_1_0_0_n_n.contr.Idx) :
    (dot_S32x18816_S32x18816_S32x32_1_1_0_0_n_n.lhsIdx (ix2 b c) q 1).val = (q ⟨0, by decide⟩).val :=
  dot_S32x18816_S32x18816_S32x32_1_1_0_0_n_n.lhsIdx_val_of_single rfl (ix2 b c) q

theorem rhs_row (b c : Fin 32) (q : dot_S32x18816_S32x18816_S32x32_1_1_0_0_n_n.contr.Idx) :
    (dot_S32x18816_S32x18816_S32x32_1_1_0_0_n_n.rhsIdx (ix2 b c) q 0).val = c.val := by
  unfold DotDims.rhsIdx
  rw [dif_neg (show ¬(0 : Fin S32x18816.rank) ∈ dot_S32x18816_S32x18816_S32x32_1_1_0_0_n_n.rhsBatch by decide),
    dif_pos (show (0 : Fin S32x18816.rank) ∈ dot_S32x18816_S32x18816_S32x32_1_1_0_0_n_n.rhsNonContracting by decide)]
  rfl

theorem rhs_col (b c : Fin 32) (q : dot_S32x18816_S32x18816_S32x32_1_1_0_0_n_n.contr.Idx) :
    (dot_S32x18816_S32x18816_S32x32_1_1_0_0_n_n.rhsIdx (ix2 b c) q 1).val = (q ⟨0, by decide⟩).val :=
  dot_S32x18816_S32x18816_S32x32_1_1_0_0_n_n.rhsIdx_val_of_single rfl (ix2 b c) q

/-- The product of a block with itself along its columns, into the zero accumulator, at (b, c): the sum over the
    block's columns of row b's entry times row c's. -/
theorem block_product_apply (y : FVec Ideal S32x18816 .bf16) (b c : Fin 32) :
    matmul dot_S32x18816_S32x18816_S32x32_1_1_0_0_n_n none y y (constant (F := Ideal) S32x32 .f32 0x00000000#32) (ix2 b c)
      = ∑ d : Fin 18816, y (ix2 b d) * y (ix2 c d) := by
  refine (Ideal.matmul_constant_zero_apply dot_S32x18816_S32x18816_S32x32_1_1_0_0_n_n none y y (ix2 b c)).trans ?_
  rw [← Equiv.sum_comp (contrEquiv1 dot_S32x18816_S32x18816_S32x32_1_1_0_0_n_n 18816 rfl rfl).symm]
  refine Finset.sum_congr rfl fun k _ => ?_
  have hk := contrEquiv1_symm_val dot_S32x18816_S32x18816_S32x32_1_1_0_0_n_n 18816 rfl rfl k
  have el : dot_S32x18816_S32x18816_S32x32_1_1_0_0_n_n.lhsIdx (ix2 b c)
      ((contrEquiv1 dot_S32x18816_S32x18816_S32x32_1_1_0_0_n_n 18816 rfl rfl).symm k) = ix2 b k :=
    funext fun a => Fin.ext (by
      match a with
      | ⟨0, _⟩ => exact lhs_row b c _
      | ⟨1, _⟩ => exact (lhs_col b c _).trans hk)
  have er : dot_S32x18816_S32x18816_S32x32_1_1_0_0_n_n.rhsIdx (ix2 b c)
      ((contrEquiv1 dot_S32x18816_S32x18816_S32x32_1_1_0_0_n_n 18816 rfl rfl).symm k) = ix2 c k :=
    funext fun a => Fin.ext (by
      match a with
      | ⟨0, _⟩ => exact rhs_row b c _
      | ⟨1, _⟩ => exact (rhs_col b c _).trans hk)
  rw [el, er]

/-! ## The three stored values -/

/-- The zero block. -/
theorem zero_apply (j : S32x32.Idx) : k0_pay1 (F := Ideal) j = 0 := by
  unfold k0_pay1
  simp only [shapeCast_self]
  exact Ideal.ofBits_zero_f32

/-- The accumulating store. -/
theorem step_apply (x : Vec Ideal S32x18816 .f32) (acc : Vec Ideal S32x32 .f32) (b c : Fin 32) :
    k0_pay2 (F := Ideal) x acc (ix2 b c)
      = acc (ix2 b c) + ∑ d : Fin 18816, (x (ix2 b d) * x (ix2 b d)) * (x (ix2 c d) * x (ix2 c d)) := by
  unfold k0_pay2
  simp only [shapeCast_self]
  refine (addf_apply _ _ (ix2 b c)).trans ?_
  exact congrArg (acc (ix2 b c) + ·) (block_product_apply _ b c)

/-- The output block: the accumulator under a leading unit axis. -/
theorem lift_apply (acc : Vec Ideal S32x32 .f32) (b c : Fin 32) :
    k0_pay3 (F := Ideal) acc (ix3 (0 : Fin 1) b c) = acc (ix2 b c) := by
  unfold k0_pay3
  refine (shapeCast_apply acc shapeCasts_S32x32_S1x32x32 (ix3 (0 : Fin 1) b c) (ix2 b c) ?_)
  rw [Shape.rowMajor_val_two, Shape.rowMajor_val_three]
  show b.val * 32 + c.val = ((0 : Fin 1).val * 32 + b.val) * 32 + c.val
  simp

end Cert.GramPayload

end
-- ==== Proof.GramPoints.lean ====
/-
  The accumulator after each grid point, and the output array after the run.

  The grid has eight points t = 4h + k (h the half of the columns, k the chunk within the half), visited in order.
  Point t's input block is the matrix's columns 18816·t … 18816·t + 18815 (all 32 rows): the block's index map sends
  point (h, k) to block column 4h + k = t. So at point t the body adds chunk t's contribution to the accumulator,
  after resetting it to zero when k = 0. By induction on the point, after point n the accumulator holds, at (b, c),
  the sum of the contributions of chunks 4·(n / 4) … n: the chunks of n's half up to n.

  The output array [2, 32, 32] is written at the points with k = 3 only: point 4h + 3 writes block h, the whole
  32×32 slab h, with the accumulator — the sum of the half's four chunks. The two slabs cover the array.
-/
import proofs.«103139_j7164005450196_2_alg».proof.Proof.GramSpec
import proofs.«103139_j7164005450196_2_alg».proof.Proof.GramPieces
import proofs.«103139_j7164005450196_2_alg».proof.Proof.GramPayload

noncomputable section

open Idealize.ShloMosaic Idealize.ShloMosaic.TcCoe Idealize.SL.Sem
open Idealize.ShloMosaic.Pipeline (Dat)

namespace Cert.GramPoints

open Cert.KernelIdeal Cert.KernelIdeal.Gen Idealize.ShloMosaic.ValueIdx
open Cert.GramSpec (col term chunk partialGram)

variable (m : (ℓ : Loc nD τ sig) → Buf (Elt Ideal) ℓ) (ρ : Dev nD → PrngReg)

/-- The flattened matrix as the kernel finds it. -/
abbrev X (c : Dev nD) : Cert.GramSpec.SX.Idx → EReal := V m c main_v0

/-- The input window's block index at point `t`: row block 0, column block `t`. -/
theorem in_index : ∀ t : Fin cfg0.N, win0_0.index t 0 = 0 ∧ win0_0.index t 1 = t.val :=
  (by decide +kernel : ∀ t : Fin grid0.N, win0_0.index t 0 = 0 ∧ win0_0.index t 1 = t.val)

/-- Point `t`'s input block at (b, d) is the matrix at row b, column 18816·t + d. -/
theorem iblk_col (c : Dev nD) (t : Fin cfg0.N) (b : Fin 32) (d : Fin 18816) :
    (iblk m c 0 t : Vec Ideal S32x18816 .f32) (ix2 b d) = col (X m c) b (t.val * 18816 + d.val) := by
  have hN : t.val < 8 := lt_of_lt_of_eq t.isLt N_0
  have hd : d.val < 18816 := d.isLt
  have hk : t.val * 18816 + d.val < 150528 := by omega
  rw [Cert.GramSpec.col_of_lt _ _ _ hk]
  unfold iblk
  rw [View.read_apply]
  show V m c main_v0 _ = V m c main_v0 _
  congr 1
  funext a
  apply Fin.ext
  match a with
  | ⟨0, _⟩ => show win0_0.index t 0 * 32 + 1 * b.val = b.val; rw [(in_index t).1]; omega
  | ⟨1, _⟩ => show win0_0.index t 1 * 18816 + 1 * d.val = t.val * 18816 + d.val; rw [(in_index t).2]; omega

/-- The accumulating store at point `t`, read at (b, c): the entry contents plus chunk `t`'s contribution. -/
theorem step_chunk (c : Dev nD) (t : Fin cfg0.N) (acc : Vec Ideal S32x32 .f32) (b c' : Fin 32) :
    k0_pay2 (F := Ideal) (iblk m c 0 t) acc (ix2 b c') = acc (ix2 b c') + chunk (X m c) t.val b c' :=
  (Cert.GramPayload.step_apply (iblk m c 0 t) acc b c').trans
    (congrArg (acc (ix2 b c') + ·)
      (Cert.GramSpec.block_sum_eq_chunk (X m c) (iblk m c 0 t) t.val (fun b d => iblk_col m c t b d) b c'))

/-- After a first point of a half (k = 0) the accumulator holds that chunk's contribution alone. -/
theorem acc_first (c : Dev nD) (t : Fin cfg0.N) (h0 : t.val % 4 = 0) (b c' : Fin 32) :
    (outsAt0 m c t.val t.isLt).2 (ix2 b c') = chunk (X m c) t.val b c' := by
  have h1 : ¬t.val % 4 = 3 := by omega
  rw [outsAt0_A m c t h0 h1]
  dsimp only
  refine (congrFun (Cert.GramPieces.scratch_A (F := Ideal) c (grid0.coords t) (ms0_0 t) (hs0_0 t) (ms0_1 t) (hs0_1 t)
    scM0_0 (Memref.isWhole_whole _) _ _ (iblk m c 0 t)) (ix2 b c')).trans ?_
  refine (step_chunk m c t _ b c').trans ?_
  rw [Cert.GramPayload.zero_apply, zero_add]

/-- After any other point it holds what the point before left plus this chunk's contribution. -/
theorem acc_next (c : Dev nD) (t : Fin cfg0.N) (h0 : ¬t.val % 4 = 0) (b c' : Fin 32) :
    (outsAt0 m c t.val t.isLt).2 (ix2 b c')
      = (outsAt0 m c (t.val - 1) (Nat.lt_of_le_of_lt (Nat.sub_le _ _) t.isLt)).2 (ix2 b c') + chunk (X m c) t.val b c' := by
  by_cases h1 : t.val % 4 = 3
  · rw [outsAt0_C m c t h0 h1]
    dsimp only
    refine (congrFun (Cert.GramPieces.scratch_C (F := Ideal) c (grid0.coords t) (ms0_0 t) (hs0_0 t) (ms0_1 t) (hs0_1 t)
      scM0_0 (Memref.isWhole_whole _) _ _ (iblk m c 0 t) _) (ix2 b c')).trans ?_
    exact step_chunk m c t _ b c'
  · rw [outsAt0_B m c t h0 h1]
    dsimp only
    refine (congrFun (Cert.GramPieces.scratch_B (F := Ideal) c (grid0.coords t) (ms0_0 t) (hs0_0 t) (ms0_1 t) (hs0_1 t)
      scM0_0 (Memref.isWhole_whole _) _ _ (iblk m c 0 t) _) (ix2 b c')).trans ?_
    exact step_chunk m c t _ b c'

/-- THE RUNNING SUM: after point `n` the accumulator holds, at (b, c), the contributions of the chunks of `n`'s half
    up to `n`. -/
theorem acc_eq (c : Dev nD) (b c' : Fin 32) : ∀ (n : ℕ) (h : n < cfg0.N),
    (outsAt0 m c n h).2 (ix2 b c') = ∑ s ∈ Finset.range (n % 4 + 1), chunk (X m c) (4 * (n / 4) + s) b c'
  | 0, h => by
    rw [acc_first m c ⟨0, h⟩ rfl b c']
    simp
  | n + 1, h => by
    by_cases h0 : (n + 1) % 4 = 0
    · rw [acc_first m c ⟨n + 1, h⟩ h0 b c']
      show chunk (X m c) (n + 1) b c' = _
      have e : 4 * ((n + 1) / 4) + 0 = n + 1 := by omega
      rw [h0, Finset.sum_range_one, e]
    · rw [acc_next m c ⟨n + 1, h⟩ h0 b c']
      show (outsAt0 m c n _).2 (ix2 b c') + chunk (X m c) (n + 1) b c' = _
      rw [acc_eq c b c' n (Nat.lt_of_succ_lt h)]
      have e4 : (n + 1) / 4 = n / 4 := by omega
      have em : (n + 1) % 4 = n % 4 + 1 := by omega
      have e : 4 * (n / 4) + (n % 4 + 1) = n + 1 := by omega
      rw [e4, em, Finset.sum_range_succ _ (n % 4 + 1), e]

end Cert.GramPoints

end
-- ==== Proof.GramArray.lean ====
/-
  The output array after the run: the two partial Gram matrices.

  The output window's block at point t = 4h + k is slab h of the [2, 32, 32] array (block index (h, 0, 0), block
  extents (1, 32, 32)), and it is written back only at k = 3, when the accumulator holds the sum of half h's four
  chunks. So what point 4h + 3 writes back is slab h of the partial Gram matrices, and the two points 3 and 7
  cover the array: after the run it holds, at (h, b, c), the contributions of chunks 4h … 4h + 3 summed.
-/
import proofs.«103139_j7164005450196_2_alg».proof.Proof.GramPoints

noncomputable section

open Idealize.ShloMosaic Idealize.ShloMosaic.TcCoe Idealize.SL.Sem
open Idealize.ShloMosaic.Pipeline (Dat)

namespace Cert.GramArray

open Cert.KernelIdeal Cert.KernelIdeal.Gen Idealize.ShloMosaic.ValueIdx
open Cert.GramSpec (col term chunk partialGram)
open Cert.GramPoints (X)

variable (m : (ℓ : Loc nD τ sig) → Buf (Elt Ideal) ℓ) (ρ : Dev nD → PrngReg)

/-- The output window's block index at point `t`: slab `t / 4`, the whole 32×32 face. -/
theorem out_index : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

/-- WHAT A WRITING POINT WRITES BACK: at a point with k = 3 the output's staging buffer holds, under the leading unit
    axis, the accumulator after the point — the sum of its half's four chunks — which is the point's block of the
    partial Gram matrices. -/
theorem flushed_eq (c : Dev nD) (t : Fin cfg0.N) (hf : (cfg0.win 1).flush t = true) :
    (dats m 0 c).flushed 1 t = ((cfg0.win 1).blk t).view.read (Elt Ideal) (partialGram (X m c)) := by
  have h3 : t.val % 4 = 3 := (flush0_1 t).mp hf
  have h0 : ¬t.val % 4 = 0 := by omega
  have hN : t.val < 8 := lt_of_lt_of_eq t.isLt N_0
  obtain ⟨e0, e1, e2⟩ := out_index t
  show (cfg0.win 1).cut (grid0.coords t) ((dats m 0 c).after 1 t) = _
  rw [after0_1, outsAt0_C m c t h0 h3]
  dsimp only
  funext j
  obtain ⟨z, b, c', rfl⟩ : ∃ (z : Fin 1) (b c' : Fin 32), j = ix3 z b c' := ⟨j 0, j 1, j 2, eq_ix3 j⟩
  have hz : z.val = 0 := by have := z.isLt; omega
  show (out0_C_1 c (grid0.coords t) (ms0_0 t) (hs0_0 t) (ms0_1 t) (hs0_1 t) scM0_0 (Memref.isWhole_whole _) _ _
      (iblk m c 0 t) _ : Vec Ideal S1x32x32 .f32) (ix3 z b c')
    = partialGram (X m c) (((cfg0.win 1).blk t).view.emb (ix3 z b c'))
  have he : ((cfg0.win 1).blk t).view.emb (ix3 z b c') = ix3 (⟨t.val / 4, by omega⟩ : Fin 2) b c' := by
    funext a
    apply Fin.ext
    match a with
    | ⟨0, _⟩ => show win0_1.index t 0 * 1 + 1 * z.val = t.val / 4; rw [e0]; omega
    | ⟨1, _⟩ => show win0_1.index t 1 * 32 + 1 * b.val = b.val; rw [e1]; omega
    | ⟨2, _⟩ => show win0_1.index t 2 * 32 + 1 * c'.val = c'.val; rw [e2]; omega
  rw [he]
  show _ = ∑ s ∈ Finset.range 4, chunk (X m c) (4 * (t.val / 4) + s) b c'
  refine (congrFun (Cert.GramPieces.out_C (F := Ideal) c (grid0.coords t) (ms0_0 t) (hs0_0 t) (ms0_1 t) (hs0_1 t)
    scM0_0 (Memref.isWhole_whole _) _ _ (iblk m c 0 t) _) (ix3 z b c')).trans ?_
  obtain rfl : z = 0 := Fin.ext hz
  refine (Cert.GramPayload.lift_apply _ b c').trans ?_
  refine (Cert.GramPoints.step_chunk m c t _ b c').trans ?_
  rw [Cert.GramPoints.acc_eq m c b c' (t.val - 1) _]
  have q1 : (t.val - 1) % 4 + 1 = 3 := by omega
  have q2 : (t.val - 1) / 4 = t.val / 4 := by omega
  have q3 : chunk (X m c) t.val b c' = chunk (X m c) (4 * (t.val / 4) + 3) b c' :=
    congrArg (fun p => chunk (X m c) p b c') (by omega : t.val = 4 * (t.val / 4) + 3)
  rw [q1, q2, q3, Finset.sum_range_succ _ 3]

/-- An index of the array is in point `t`'s block iff each coordinate is in the block's range on its axis. -/
theorem mem_blk (t : Fin cfg0.N) (i : S2x32x32.Idx) :
    i ∈ ((cfg0.win 1).blk t).view.set ↔ ∀ a : Fin 3, win0_1.index t a * S1x32x32.size a ≤ (i a).val
      ∧ (i a).val < win0_1.index t a * S1x32x32.size a + S1x32x32.size a := by
  show i ∈ ((View.whole main_v1).slice (win0_1.rect t)).set ↔ _
  rw [View.set_slice_whole, Rect.mem_set_unit]
  exact Iff.rfl

/-- THE COVER: index (h, b, c) is in the block of point 4h + 3, which writes back. -/
theorem cover (i : S2x32x32.Idx) :
    ∃ t : Fin cfg0.N, (cfg0.win 1).flush t = true ∧ i ∈ ((cfg0.win 1).blk t).view.set := by
  have hi0 : (i 0).val < 2 := (i 0).isLt
  have hi1 : (i 1).val < 32 := (i 1).isLt
  have hi2 : (i 2).val < 32 := (i 2).isLt
  have hN : cfg0.N = 8 := N_0
  have ht : 4 * (i 0).val + 3 < cfg0.N := by rw [hN]; omega
  obtain ⟨e0, e1, e2⟩ := out_index ⟨4 * (i 0).val + 3, ht⟩
  have e0' : win0_1.index ⟨4 * (i 0).val + 3, ht⟩ 0 = (4 * (i 0).val + 3) / 4 := e0
  refine ⟨⟨4 * (i 0).val + 3, ht⟩, (flush0_1 _).mpr (by show (4 * (i 0).val + 3) % 4 = 3; omega), ?_⟩
  rw [mem_blk]
  intro a
  match a with
  | ⟨0, _⟩ =>
    show win0_1.index ⟨4 * (i 0).val + 3, ht⟩ 0 * 1 ≤ (i 0).val ∧ (i 0).val < win0_1.index ⟨4 * (i 0).val + 3, ht⟩ 0 * 1 + 1
    rw [e0']; omega
  | ⟨1, _⟩ =>
    show win0_1.index ⟨4 * (i 0).val + 3, ht⟩ 1 * 32 ≤ (i 1).val ∧ (i 1).val < win0_1.index ⟨4 * (i 0).val + 3, ht⟩ 1 * 32 + 32
    rw [e1]; omega
  | ⟨2, _⟩ =>
    show win0_1.index ⟨4 * (i 0).val + 3, ht⟩ 2 * 32 ≤ (i 2).val ∧ (i 2).val < win0_1.index ⟨4 * (i 0).val + 3, ht⟩ 2 * 32 + 32
    rw [e2]; omega

/-- THE ARRAY AFTER THE RUN: the two partial Gram matrices. -/
theorem final (c : Dev nD) : (dats m 0 c).arrAt 1 cfg0.N = partialGram (X m c) :=
  (dats m 0 c).arrAt_eq_of_cover 1 (partialGram (X m c)) (fun t hf => flushed_eq m c t hf) cover

end Cert.GramArray

end
-- ==== Proof.GramTail.lean ====
/-
  The last lines of both programs, as one function of the 32×32 Gram matrix.

  Both programs end the same way: divide every entry by 150528, multiply by the mask 1 − [b = c] (the identity
  matrix built by comparing a row iota with a column iota), and sum all 1024 entries from 0. The two programs differ
  only in how they obtain the Gram matrix this is applied to, so the certificate compares the Gram matrices and
  never opens these lines.
-/
import Idealize.ShloMosaic.PureOps
import Idealize.ShloMosaic.PureOps.Ideal

noncomputable section

namespace Cert.GramTail

open Idealize.ShloMosaic

/-- The Gram matrix's shape. -/
abbrev SG : Shape := ⟨2, ![32, 32]⟩
/-- The result's shape: a scalar. -/
abbrev S0 : Shape := ⟨0, ![]⟩

/-- The off-diagonal mean sum: Σ_{b,c} (g(b,c) / 150528) · (1 − [b = c]), as the programs spell it. -/
def tail (hb : S0.BroadcastsInDim SG (![] : Fin 0 → Fin SG.rank)) (hr : SG.ReducesTo [0, 1] S0) (hs : 0 < S0.numel)
    (g : FVec Ideal SG .f32) : FVec Ideal S0 .f32 :=
  Host.reduceAdd (F := Ideal)
    (mulf (Host.divf (F := Ideal) g (broadcastInDim SG ![] hb (constant (F := Ideal) S0 .f32 0x48130000#32)))
      (subf (broadcastInDim SG ![] hb (constant (F := Ideal) S0 .f32 0x3F800000#32))
        (uitofp (F := Ideal) .f32 (cmpi .eq (addi (iotaInDim SG 32 0) (broadcastInDim SG ![] hb (constantI S0 32 0#32)))
          (iotaInDim SG 32 1)))))
    (constant (F := Ideal) S0 .f32 0x00000000#32) hr hs

end Cert.GramTail

end
-- ==== Proof.GramKernelRun.lean ====
/-
  The kernel program's run, read as a value.

  Before the kernel the argument is reshaped to 32 × 150528. The kernel leaves the two partial Gram matrices in its
  output array. After it the program takes the array's two slabs, drops their unit axes, adds them — by the chunk law
  that is the Gram matrix — and then runs the last lines it shares with the reference.
-/
import proofs.«103139_j7164005450196_2_alg».proof.Proof.GramArray
import proofs.«103139_j7164005450196_2_alg».proof.Proof.GramTail
import Idealize.ShloMosaic.Lib.StableHlo.Run

noncomputable section

open Idealize.ShloMosaic Idealize.ShloMosaic.TcCoe Idealize.SL.Sem
open Idealize.ShloMosaic.Pipeline (Dat)

namespace Cert.GramKernelRun

open Cert.KernelIdeal Cert.KernelIdeal.Gen Idealize.ShloMosaic.ValueIdx Idealize.ShloMosaic.StableHlo
open Cert.GramSpec (partialGram)
open Cert.GramPoints (X)

variable (m : (ℓ : Loc nD τ sig) → Buf (Elt Ideal) ℓ) (ρ : Dev nD → PrngReg)

/-- The flattened matrix the kernel finds is the argument reshaped to 32 rows. -/
theorem X_eq (c : Dev nD) :
    X m c = shapeCast S32x150528 (m ((c : Thread nD τ).loc main_arg0)) shapeCasts_S32x3x224x224_S32x150528 := by
  show StableHlo.after hostOps0 (fun b => m (c, b)) (Proc.devRef .tc main_v0) = _
  after_results
  rfl

/-- What the lines after the kernel make of its output array before the shared last lines: slab 0 plus slab 1,
    each without its unit axis. -/
def sumOfSlabs (A : S2x32x32.Idx → EReal) : FVec Ideal S32x32 .f32 :=
  addf (shapeCast S32x32 (extractStridedSlice S1x32x32 ![0, 0, 0] A slices_S2x32x32_S1x32x32_0_0_0) shapeCasts_S1x32x32_S32x32)
    (shapeCast S32x32 (extractStridedSlice S1x32x32 ![1, 0, 0] A slices_S2x32x32_S1x32x32_1_0_0) shapeCasts_S1x32x32_S32x32)

/-- Slab `h` without its unit axis, at (b, c), is the array at (h, b, c). -/
theorem slab_apply (A : S2x32x32.Idx → EReal) (h : Fin 2) (off : Fin 3 → ℕ) (hoff : off = ![h.val, 0, 0])
    (hs : S2x32x32.Slices off S1x32x32) (b c : Fin 32) :
    shapeCast S32x32 (extractStridedSlice S1x32x32 off A hs) shapeCasts_S1x32x32_S32x32 (ix2 b c) = A (ix3 h b c) := by
  subst hoff
  refine (shapeCast_apply _ shapeCasts_S1x32x32_S32x32 (ix2 b c) (ix3 (0 : Fin 1) b c) ?_).trans ?_
  · rw [Shape.rowMajor_val_three, Shape.rowMajor_val_two]
    show ((0 : Fin 1).val * 32 + b.val) * 32 + c.val = b.val * 32 + c.val
    simp
  · refine extractStridedSlice_apply _ A hs (ix3 (0 : Fin 1) b c) (ix3 h b c) ?_
    intro a
    match a with
    | ⟨0, _⟩ => show h.val = h.val + (0 : Fin 1).val; simp
    | ⟨1, _⟩ => show b.val = 0 + b.val; omega
    | ⟨2, _⟩ => show c.val = 0 + c.val; omega

/-- The two partial Gram matrices add up to the Gram matrix: the first half's four chunks plus the second half's four
    are all eight. -/
theorem slabs_eq_gram (Xm : Cert.GramSpec.SX.Idx → EReal) :
    sumOfSlabs (partialGram Xm) = Cert.GramSpec.gramMatrix Xm := by
  funext i
  obtain ⟨b, c, rfl⟩ : ∃ (b c : Fin 32), i = ix2 b c := ⟨i 0, i 1, eq_ix2 i⟩
  unfold sumOfSlabs
  refine (addf_apply _ _ (ix2 b c)).trans ?_
  rw [slab_apply (partialGram Xm) 0 ![0, 0, 0] rfl, slab_apply (partialGram Xm) 1 ![1, 0, 0] rfl]
  exact (Cert.GramSpec.gram_eq_halves Xm b c).symm

set_option maxHeartbeats 2000000 in
/-- The result after the lines that follow the kernel: the shared last lines applied to the sum of the output array's
    two slabs, the array being the partial Gram matrices. -/
theorem tail_eq (c : Dev nD) :
    Pipeline.afterTail₀ cfgs (dats m) 0 (V0 m) [hostOps1] c main_v18
      = Cert.GramTail.tail bcast_S_S32x32 reducesTo_S32x32_S_d0_1 h_S_ (sumOfSlabs (partialGram (X m c))) := by
  have hA : Pipeline.withArrays (cfgs 0).spec c (V0 m c) (fun w => (dats m 0 c).arrAt w (cfgs 0).N)
      (Proc.devRef .tc main_v1) = partialGram (X m c) :=
    (Pipeline.withArrays_arr spec0 launch0.win.arr_inj c _ _ 1).trans (Cert.GramArray.final m c)
  unfold Pipeline.afterTail₀
  show StableHlo.after hostOps1 _ (Proc.devRef .tc main_v18) = _
  after_results
  rw [hA]
  rfl

/-- THE KERNEL'S RUN, READ: every weakly fair execution terminates with the result at the shared last lines applied
    to the Gram matrix of the reshaped argument, the argument unchanged. -/
theorem run : θ_run defs (onTc (τ := τ) (main (F := Ideal))) ⟨m, fun _ => 0, ρ⟩ fun r => ∀ c : Dev nD,
      r.2.mem ((c.tc : Thread nD τ).loc main_v18)
        = Cert.GramTail.tail bcast_S_S32x32 reducesTo_S32x32_S_d0_1 h_S_
            (Cert.GramSpec.gramMatrix
              (shapeCast S32x150528 (m ((c.tc : Thread nD τ).loc main_arg0)) shapeCasts_S32x3x224x224_S32x150528))
      ∧ r.2.mem ((c.tc : Thread nD τ).loc main_arg0) = m ((c.tc : Thread nD τ).loc main_arg0) :=
  (θ_run defs _ _).mono (fun r h c =>
      ⟨((h c).2 main_v18 (Pipeline.mem_restRefs_of main_v18 (by decide) (by decide))).trans
          ((tail_eq m c).trans (by rw [slabs_eq_gram, X_eq])),
        ((h c).2 main_arg0 (Pipeline.mem_restRefs_of main_arg0 (by decide) (by decide))).trans
          (W_main_arg0 m (dats m) c)⟩)
    (run_main m ρ)

end Cert.GramKernelRun

end
-- ==== Proof.GramReference.lean ====
/-
  The reference program, read: its result is the shared last lines applied to its Gram matrix, and that Gram
  matrix at (b, c) is the Gram entry of the flattened argument's squared rows — one contraction over all 150528
  columns of (X(b,k)·X(b,k)) · (X(c,k)·X(c,k)).
-/
import proofs.«103139_j7164005450196_2_alg».proof.Proof.Gen.ReferenceIdeal.Read
import proofs.«103139_j7164005450196_2_alg».proof.Proof.GramSpec
import proofs.«103139_j7164005450196_2_alg».proof.Proof.GramTail

noncomputable section

namespace Cert.GramReference

open Cert.ReferenceIdeal Cert.ReferenceIdeal.Gen Cert.ReferenceIdeal.Read
open Idealize.ShloMosaic Idealize.ShloMosaic.ValueIdx

/-- The reference's result is the last lines applied to its matrix product. -/
theorem result_eq_tail (x0 : (⟨S32x3x224x224, .f32⟩ : BufTy).Contents (Elt Ideal)) :
    val_main_v14 (F := Ideal) x0
      = Cert.GramTail.tail bcast_S_S32x32 reducesTo_S32x32_S_d0_1 h_S_ (val_main_v2 (F := Ideal) x0) := rfl

/-- The reference's matrix product at (b, c) is the Gram entry of the flattened argument. -/
theorem product_apply (x0 : (⟨S32x3x224x224, .f32⟩ : BufTy).Contents (Elt Ideal)) (b c : Fin 32) :
    val_main_v2 (F := Ideal) x0 (ix2 b c) = Cert.GramSpec.gram (val_main_v0 (F := Ideal) x0) b c := by
  rw [val_main_v2_apply, Cert.GramSpec.gram_eq_fin_sum]
  refine Finset.sum_congr rfl fun k _ => ?_
  have el : lidx_main_v2 (ix2 b c) k = ix2 b k :=
    funext fun a => Fin.ext (by match a with | ⟨0, _⟩ => rfl | ⟨1, _⟩ => rfl)
  have er : ridx_main_v2 (ix2 b c) k = ix2 c k :=
    funext fun a => Fin.ext (by match a with | ⟨0, _⟩ => rfl | ⟨1, _⟩ => rfl)
  rw [el, er, val_main_v1_apply, val_main_v1_apply]
  rfl

/-- So the reference's matrix product is the Gram matrix. -/
theorem product_eq (x0 : (⟨S32x3x224x224, .f32⟩ : BufTy).Contents (Elt Ideal)) :
    val_main_v2 (F := Ideal) x0 = Cert.GramSpec.gramMatrix (val_main_v0 (F := Ideal) x0) := by
  funext i
  obtain ⟨b, c, rfl⟩ : ∃ (b c : Fin 32), i = ix2 b c := ⟨i 0, i 1, eq_ix2 i⟩
  exact product_apply x0 b c

end Cert.GramReference

end
-- ==== Proof.lean ====
/-
  The certificate of an off-diagonal Gram penalty.

  The argument is a 32 × 3 × 224 × 224 array, read as a matrix X of 32 rows and 150528 columns. Both programs compute

      Σ_{b, c} ( Γ(b, c) / 150528 ) · ( 1 − [b = c] ),     Γ(b, c) = Σ_{k < 150528} (X(b,k)·X(b,k)) · (X(c,k)·X(c,k)),

  the sum of the off-diagonal entries of the Gram matrix of the squared rows, divided by the number of columns.

  The reference forms Γ by one contraction over all 150528 columns. The kernel cuts the columns into eight chunks
  of 18816, visits them in order on a 2 × 4 grid, and keeps a 32 × 32 accumulator: reset to zero at the first chunk of
  each half, increased by the chunk's own 32 × 32 product at every chunk, written out after the fourth. Its output is
  the two partial Gram matrices, which the program then adds. Over the extended reals the narrowing of the squared
  entries before the matrix product is the identity and the product into a zero accumulator is a plain sum, so the
  kernel's matrix at (b, c) is (chunk 0 + … + chunk 3) + (chunk 4 + … + chunk 7) of the same 150528 terms the
  reference sums at once. The two agree because + on the extended reals is commutative and associative with unit 0:
  no entry needs to be finite, and the precondition is not used for the values. From the Gram matrix on, the two
  programs run the same lines (divide, mask, multiply, sum), which the proof never opens.

  The idealization pass rewrote no operation of the kernel, so the kernel's idealization is its own text and that
  conjunct is trivial. The three frames are the generated ones (the reference's is its generated run with the result
  dropped).
-/
import proofs.«103139_j7164005450196_2_alg».proof.Defs
import proofs.«103139_j7164005450196_2_alg».proof.Proof.Gen.Kernel
import proofs.«103139_j7164005450196_2_alg».proof.Proof.Gen.Kernel.Skeleton
import proofs.«103139_j7164005450196_2_alg».proof.Proof.Gen.Kernel.Launch
import proofs.«103139_j7164005450196_2_alg».proof.Proof.Gen.Kernel.Points
import proofs.«103139_j7164005450196_2_alg».proof.Proof.Gen.Kernel.Frame
import proofs.«103139_j7164005450196_2_alg».proof.Proof.Gen.KernelIdeal
import proofs.«103139_j7164005450196_2_alg».proof.Proof.Gen.KernelIdeal.Skeleton
import proofs.«103139_j7164005450196_2_alg».proof.Proof.Gen.KernelIdeal.Launch
import proofs.«103139_j7164005450196_2_alg».proof.Proof.Gen.KernelIdeal.Points
import proofs.«103139_j7164005450196_2_alg».proof.Proof.Gen.KernelIdeal.Frame
import proofs.«103139_j7164005450196_2_alg».proof.Proof.Gen.ReferenceIdeal
import proofs.«103139_j7164005450196_2_alg».proof.Proof.Gen.Pre_finite_inputs
import proofs.«103139_j7164005450196_2_alg».proof.Proof.Gen.ReferenceIdeal.Run
import proofs.«103139_j7164005450196_2_alg».proof.Proof.Gen.ReferenceIdeal.Read
import proofs.«103139_j7164005450196_2_alg».proof.Proof.GramKernelRun
import proofs.«103139_j7164005450196_2_alg».proof.Proof.GramReference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The pass rewrote nothing: there is no conjunct to prove. -/
theorem preserves : Cert.preserves_Kernel_KernelIdeal := trivial

/-- Both runs end at the shared last lines applied to the Gram matrix of the reshaped argument: the kernel's by the
    chunk law, the reference's by its one contraction. -/
theorem algebraic : Cert.algebraic_KernelIdeal_ReferenceIdeal := by
  intro m ρ m' ρ' _ hagree
  refine ⟨_, Cert.GramKernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.GramReference.result_eq_tail, Cert.GramReference.product_eq,
    hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
